-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x16 : Shape := ⟨2, ![256, 16]⟩
abbrev S16x256 : Shape := ⟨2, ![16, 256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S32x256x56x56 .f32) (main_arg1 : FVec F S256x16 .f32) (main_arg2 : FVec F S16x256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S32x256x56x56 : Shape := ⟨4, ![32, 256, 56, 56]⟩
abbrev S256x16 : Shape := ⟨2, ![256, 16]⟩
abbrev S16x256 : Shape := ⟨2, ![16, 256]⟩
abbrev S32x256x3136 : Shape := ⟨3, ![32, 256, 3136]⟩
abbrev S_ : Shape := ⟨0, ![]⟩
abbrev S3136x128 : Shape := ⟨2, ![3136, 128]⟩
abbrev S32x256x128 : Shape := ⟨3, ![32, 256, 128]⟩
abbrev S4x256x3136 : Shape := ⟨3, ![4, 256, 3136]⟩
abbrev S4x256x128 : Shape := ⟨3, ![4, 256, 128]⟩
abbrev S1x256x3136 : Shape := ⟨3, ![1, 256, 3136]⟩
abbrev S256x3136 : Shape := ⟨2, ![256, 3136]⟩
abbrev S256x128 : Shape := ⟨2, ![256, 128]⟩
abbrev S16x128 : Shape := ⟨2, ![16, 128]⟩
abbrev S1x256x128 : Shape := ⟨3, ![1, 256, 128]⟩
abbrev S32x256x1 : Shape := ⟨3, ![32, 256, 1]⟩
abbrev S32x256x1x1 : Shape := ⟨4, ![32, 256, 1, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x256x56x56, .f32⟩
  | .hbm, ⟨1, _⟩ => ⟨S256x16, .f32⟩
  | .hbm, ⟨2, _⟩ => ⟨S16x256, .f32⟩
  | .hbm, ⟨3, _⟩ => ⟨S32x256x3136, .f32⟩
  | .hbm, ⟨4, _⟩ => ⟨S_, .f32⟩
  | .hbm, ⟨5, _⟩ => ⟨S3136x128, .f32⟩
  | .hbm, ⟨6, _⟩ => ⟨S16x256, .f32⟩
  | .hbm, ⟨7, _⟩ => ⟨S256x16, .f32⟩
  | .hbm, ⟨8, _⟩ => ⟨S32x256x128, .f32⟩
  | .hbm, ⟨9, _⟩ => ⟨S32x256x1, .f32⟩
  | .hbm, ⟨10, _⟩ => ⟨S32x256x1x1, .f32⟩
  | .hbm, ⟨11, _⟩ => ⟨S32x256x56x56, .f32⟩
  | .hbm, ⟨12, _⟩ => ⟨S32x256x56x56, .f32⟩
  | .local _ .vmem, ⟨0, _⟩ => ⟨S4x256x3136, .f32⟩
  | .local _ .vmem, ⟨1, _⟩ => ⟨S4x256x3136, .f32⟩
  | .local _ .vmem, ⟨2, _⟩ => ⟨S3136x128, .f32⟩
  | .local _ .vmem, ⟨3, _⟩ => ⟨S16x256, .f32⟩
  | .local _ .vmem, ⟨4, _⟩ => ⟨S256x16, .f32⟩
  | .local _ .vmem, ⟨5, _⟩ => ⟨S4x256x128, .f32⟩
  | .local _ .vmem, ⟨6, _⟩ => ⟨S4x256x128, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x56x56_S32x256x3136 : S32x256x56x56.ShapeCasts S32x256x3136
  bcast_S_S3136x128 : S_.BroadcastsInDim S3136x128 (![] : Fin 0 → Fin S3136x128.rank)
  transposes_S256x16_S16x256_1_0 : S256x16.Transposes [1, 0] S16x256
  transposes_S16x256_S256x16_1_0 : S16x256.Transposes [1, 0] S256x16
  inb_S4x256x3136_S1x256x3136_0_0_0 : ∀ a, (![0, 0, 0] : Fin 3 → Nat) a + S1x256x3136.size a ≤ S4x256x3136.size a
  h_S1x256x3136 : 0 < S1x256x3136.numel
  shapeCasts_S1x256x3136_S256x3136 : S1x256x3136.ShapeCasts S256x3136
  inb_S3136x128_S3136x128_0_0 : ∀ a, (![0, 0] : Fin 2 → Nat) a + S3136x128.size a ≤ S3136x128.size a
  h_S3136x128 : 0 < S3136x128.numel
  shapeCasts_S3136x128_S3136x128 : S3136x128.ShapeCasts S3136x128
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  shapeCasts_S256x128_S1x256x128 : S256x128.ShapeCasts S1x256x128
  inb_S4x256x3136_S1x256x3136_1_0_0 : ∀ a, (![1, 0, 0] : Fin 3 → Nat) a + S1x256x3136.size a ≤ S4x256x3136.size a
  inb_S4x256x128_S1x256x128_1_0_0 : ∀ a, (![1, 0, 0] : Fin 3 → Nat) a + S1x256x128.size a ≤ S4x256x128.size a
  inb_S4x256x3136_S1x256x3136_2_0_0 : ∀ a, (![2, 0, 0] : Fin 3 → Nat) a + S1x256x3136.size a ≤ S4x256x3136.size a
  inb_S4x256x128_S1x256x128_2_0_0 : ∀ a, (![2, 0, 0] : Fin 3 → Nat) a + S1x256x128.size a ≤ S4x256x128.size a
  inb_S4x256x3136_S1x256x3136_3_0_0 : ∀ a, (![3, 0, 0] : Fin 3 → Nat) a + S1x256x3136.size a ≤ S4x256x3136.size a
  inb_S4x256x128_S1x256x128_3_0_0 : ∀ a, (![3, 0, 0] : Fin 3 → Nat) a + S1x256x128.size a ≤ S4x256x128.size a
  slices_S32x256x128_S32x256x1_0_0_0 : S32x256x128.Slices ![0, 0, 0] S32x256x1
  shapeCasts_S32x256x1_S32x256x1x1 : S32x256x1.ShapeCasts S32x256x1x1
  bcast_S32x256x1x1_S32x256x56x56_0_1_2_3 : S32x256x1x1.BroadcastsInDim S32x256x56x56 (![0, 1, 2, 3] : Fin 4 → Fin S32x256x56x56.rank)
  dot_S256x3136_S3136x128_S256x128_1_0_0_1_n_n_wf : DotDims.WF S256x3136 S3136x128 S256x128 [1] [0] [0] [1] [] []
  dot_S16x256_S256x128_S16x128_1_0_0_1_n_n_wf : DotDims.WF S16x256 S256x128 S16x128 [1] [0] [0] [1] [] []
  dot_S256x16_S16x128_S256x128_1_0_0_1_n_n_wf : DotDims.WF S256x16 S16x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x3136.size a ≤ S32x256x3136.size a
  hwx0_0 : ∀ i : grid0.Coords, EltTy.bits .f32 = 32 ∨ (Rect.block (s := S32x256x3136) S4x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x128.size a ≤ S3136x128.size a
  hwx0_1 : ∀ i : grid0.Coords, EltTy.bits .f32 = 32 ∨ (Rect.block (s := S3136x128) S3136x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x128.size a ≤ S32x256x128.size a
  hwx0_4 : ∀ i : grid0.Coords, EltTy.bits .f32 = 32 ∨ (Rect.block (s := S32x256x128) S4x256x128.size (cc0_transform_4 i) (hinb0_4 i)).WholeWords (EltTy.packing .f32)

variable [Facts₀]

def dot_S256x3136_S3136x128_S256x128_1_0_0_1_n_n : DotDims S256x3136 S3136x128 S256x128 where
  lhsContracting := [1]
  rhsContracting := [0]
  lhsNonContracting := [0]
  rhsNonContracting := [1]
  lhsBatch := []
  rhsBatch := []
  wf := dot_S256x3136_S3136x128_S256x128_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S256x16_S16x128_S256x128_1_0_0_1_n_n : DotDims S256x16 S16x128 S256x128 where
  lhsContracting := [1]
  rhsContracting := [0]
  lhsNonContracting := [0]
  rhsNonContracting := [1]
  lhsBatch := []
  rhsBatch := []
  wf := dot_S256x16_S16x128_S256x128_1_0_0_1_n_n_wf

abbrev win0_0 : Pipeline.Window sig grid0 :=
  Pipeline.Window.ofSpec (Memref.whole main_v0) S4x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3136x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x16 : Shape := ⟨2, ![256, 16]⟩
abbrev S16x256 : Shape := ⟨2, ![16, 256]⟩
abbrev S32x256x3136 : Shape := ⟨3, ![32, 256, 3136]⟩
abbrev S1x256x3136 : Shape := ⟨3, ![1, 256, 3136]⟩
abbrev S1x256 : Shape := ⟨2, ![1, 256]⟩
abbrev S1x16 : Shape := ⟨2, ![1, 16]⟩
abbrev S1x256x1 : Shape := ⟨3, ![1, 256, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256x16, .f32⟩
  | .hbm, ⟨2, _⟩ => ⟨S16x256, .f32⟩
  | .hbm, ⟨3, _⟩ => ⟨S32x256x3136, .f32⟩
  | .hbm, ⟨4, _⟩ => ⟨S32x256x3136, .f32⟩
  | .hbm, ⟨5, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x16, .f32⟩
  | .local _ .vmem, ⟨3, _⟩ => ⟨S16x256, .f32⟩
  | .local _ .vmem, ⟨4, _⟩ => ⟨S1x256x3136, .f32⟩
  | .local _ .vmem, ⟨5, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x56x56_S32x256x3136 : S32x256x56x56.ShapeCasts S32x256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S1x256x3136 : S1x256x3136.ShapeCasts S1x256x3136
  reduces_S1x256x3136_S1x256 : S1x256x3136.Reduces [2] S1x256
  inb_S256x16_S256x16_0_0 : ∀ a, (![0, 0] : Fin 2 → Nat) a + S256x16.size a ≤ S256x16.size a
  h_S256x16 : 0 < S256x16.numel
  inb_S16x256_S16x256_0_0 : ∀ a, (![0, 0] : Fin 2 → Nat) a + S16x256.size a ≤ S16x256.size a
  h_S16x256 : 0 < S16x256.numel
  shapeCasts_S1x256_S1x256x1 : S1x256.ShapeCasts S1x256x1
  broadcasts_S1x256x1_S1x256x3136 : S1x256x1.Broadcasts S1x256x3136
  shapeCasts_S32x256x3136_S32x256x56x56 : S32x256x3136.ShapeCasts S32x256x56x56
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3136.size a ≤ S32x256x3136.size a
  hwx0_3 : ∀ i : grid0.Coords, EltTy.bits .f32 = 32 ∨ (Rect.block (s := S32x256x3136) S1x256x3136.size (cc0_transform_3 i) (hinb0_3 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Spec.lean ====
/-
  The squeeze-and-excitation gate, as mathematics over the extended reals.

  For an activation array x[b, c, h, w] (32 x 256 x 56 x 56), flattened over its 3136 = 56 * 56 positions to
  x3[b, c, s], and weight matrices w1[c, r] (256 x 16) and w2[r, c] (16 x 256):

    mean[b, c]   = (1/3136) * sum over s of x3[b, c, s]
    hidden[b, r] = max (sum over c of mean[b, c] * w1[c, r]) 0
    gate[b, c]   = logistic (sum over r of hidden[b, r] * w2[r, c])
    out[b,c,h,w] = x[b, c, h, w] * gate[b, c]

  Two arrangements of this formula are stated. In the first the factor 1/3136 is multiplied into every term
  of the spatial sum (the sum is a matrix product against a constant matrix filled with that factor) and the
  weights stand on the LEFT of each product; in the second the spatial sum is taken first and scaled once, and
  the weights stand on the RIGHT. The factor is the same float word on both sides, read as the exact real it
  denotes, so nothing about its value is used except that it is a real number.

  The two arrangements agree when every entry of x is a real number: then the spatial sum is a sum of reals and
  the factor distributes over it (on the extended reals it does not in general: a sum holding both infinities
  is the bottom element whatever the factor). The products with the weights only commute, which holds for all
  extended reals, so nothing is asked of the weights.
-/
import Idealize.ShloMosaic.PureOps.Ideal
import Idealize.ShloMosaic.PureOps.Ideal.Laws
import Idealize.ShloMosaic.Lib.ValueIdx
import Mathlib.Data.EReal.Inv
import Mathlib.Algebra.BigOperators.Group.Finset.Basic

noncomputable section

namespace Cert.SE

open Idealize.ShloMosaic Idealize.ShloMosaic.ValueIdx

/-- The activations, [batch, channel, row, column]. -/
abbrev SX : Shape := ⟨4, ![32, 256, 56, 56]⟩
/-- The activations with the two spatial axes merged. -/
abbrev SX3 : Shape := ⟨3, ![32, 256, 3136]⟩
/-- The first weight matrix, [channel, reduced]. -/
abbrev SW1 : Shape := ⟨2, ![256, 16]⟩
/-- The second weight matrix, [reduced, channel]. -/
abbrev SW2 : Shape := ⟨2, ![16, 256]⟩

/-- The float word nearest 1/3136, as the exact extended real it denotes. -/
def kap : EReal := Ideal.ofBits .f32 0x39A72F05#32

/-- The float zero word, as the extended real it denotes (the floor of the rectifier). -/
def zer : EReal := Ideal.ofBits .f32 0x00000000#32

/-- Position s of the merged spatial axis is row s / 56, column s % 56. -/
def flat (x : SX.Idx → EReal) : SX3.Idx → EReal := fun k =>
  x (ix4 (k 0) (k 1) ⟨(k 2).val / 56, by have h : (k 2).val < 3136 := (k 2).isLt; show (k 2).val / 56 < 56; omega⟩
    ⟨(k 2).val % 56, Nat.mod_lt _ (by decide)⟩)

/-! ## First arrangement: the factor inside the spatial sum, weights on the left -/

def meanK (x3 : SX3.Idx → EReal) (b : Fin 32) (c : Fin 256) : EReal :=
  ∑ s : Fin 3136, x3 (ix3 b c s) * kap

def hidK (x3 : SX3.Idx → EReal) (w1 : SW1.Idx → EReal) (b : Fin 32) (r : Fin 16) : EReal :=
  max (∑ c : Fin 256, w1 (ix2 c r) * meanK x3 b c) zer

def gateK (x3 : SX3.Idx → EReal) (w1 : SW1.Idx → EReal) (w2 : SW2.Idx → EReal) (b : Fin 32) (c : Fin 256) : EReal :=
  Ideal.logistic (∑ r : Fin 16, w2 (ix2 r c) * hidK x3 w1 b r)

/-- The result in the first arrangement. -/
def outK (x : SX.Idx → EReal) (w1 : SW1.Idx → EReal) (w2 : SW2.Idx → EReal) : SX.Idx → EReal := fun i =>
  x i * gateK (flat x) w1 w2 (i 0) (i 1)

/-! ## Second arrangement: the spatial sum scaled once, weights on the right -/

def meanR (x3 : SX3.Idx → EReal) (b : Fin 32) (c : Fin 256) : EReal :=
  (∑ s : Fin 3136, x3 (ix3 b c s)) * kap

def hidR (x3 : SX3.Idx → EReal) (w1 : SW1.Idx → EReal) (b : Fin 32) (r : Fin 16) : EReal :=
  max (∑ c : Fin 256, meanR x3 b c * w1 (ix2 c r)) zer

def gateR (x3 : SX3.Idx → EReal) (w1 : SW1.Idx → EReal) (w2 : SW2.Idx → EReal) (b : Fin 32) (c : Fin 256) : EReal :=
  Ideal.logistic (∑ r : Fin 16, hidR x3 w1 b r * w2 (ix2 r c))

/-- The result in the second arrangement. -/
def outR (x : SX.Idx → EReal) (w1 : SW1.Idx → EReal) (w2 : SW2.Idx → EReal) : SX.Idx → EReal := fun i =>
  x i * gateR (flat x) w1 w2 (i 0) (i 1)

/-! ## The two arrangements agree on real activations -/

/-- A finite sum of reals read in the extended reals is the sum read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor is a real number: its word's exponent field is not all ones. -/
theorem kap_real : ∃ r : ℝ, kap = (r : EReal) := by
  unfold kap
  simp [Ideal.ofBits, Ideal.ieee]
  exact ⟨_, rfl⟩

/-- On real activations the factor moves out of the spatial sum: a real constant distributes over a finite
    sum of reals. -/
theorem mean_eq (x3 : SX3.Idx → EReal) (hx : ∀ k, ∃ r : ℝ, x3 k = (r : EReal)) (b : Fin 32) (c : Fin 256) :
    meanK x3 b c = meanR x3 b c := by
  choose f hf using hx
  obtain ⟨κ, hκ⟩ := kap_real
  unfold meanK meanR
  simp only [hf, hκ]
  have h1 : ∀ s : Fin 3136, (f (ix3 b c s) : EReal) * (κ : EReal) = ((f (ix3 b c s) * κ : ℝ) : EReal) :=
    fun s => (EReal.coe_mul _ _).symm
  simp only [h1]
  rw [← coe_sum, ← coe_sum, ← EReal.coe_mul, Finset.sum_mul]

/-- The hidden layer: the products with the first weights commute. -/
theorem hid_eq (x3 : SX3.Idx → EReal) (hx : ∀ k, ∃ r : ℝ, x3 k = (r : EReal)) (w1 : SW1.Idx → EReal)
    (b : Fin 32) (r : Fin 16) : hidK x3 w1 b r = hidR x3 w1 b r := by
  unfold hidK hidR
  refine congrArg (max · zer) (Finset.sum_congr rfl fun c _ => ?_)
  rw [mean_eq x3 hx b c, mul_comm]

/-- The gate: the products with the second weights commute. -/
theorem gate_eq (x3 : SX3.Idx → EReal) (hx : ∀ k, ∃ r : ℝ, x3 k = (r : EReal)) (w1 : SW1.Idx → EReal)
    (w2 : SW2.Idx → EReal) (b : Fin 32) (c : Fin 256) : gateK x3 w1 w2 b c = gateR x3 w1 w2 b c := by
  unfold gateK gateR
  refine congrArg Ideal.logistic (Finset.sum_congr rfl fun r _ => ?_)
  rw [hid_eq x3 hx w1 b r, mul_comm]

/-- The two results are one array when every activation is a real number. -/
theorem out_eq (x : SX.Idx → EReal) (hx : ∀ i, ∃ r : ℝ, x i = (r : EReal)) (w1 : SW1.Idx → EReal)
    (w2 : SW2.Idx → EReal) : outK x w1 w2 = outR x w1 w2 := by
  funext i
  unfold outK outR
  rw [gate_eq (flat x) (fun k => hx _) w1 w2 (i 0) (i 1)]

end Cert.SE

end
-- ==== Proof.Finite.lean ====
/-
  Finite inputs are real numbers. The precondition is a conjunction of three statements "every entry of the array has
  absolute value strictly below +∞", one per input array; each is a reduction by `and` of an elementwise comparison
  against the constant whose single-precision pattern 0x7F800000 denotes +∞. Over the extended reals |y| = max y (-y),
  and max y (-y) < ⊤ excludes both y = ⊤ and y = ⊥ (where -y = ⊤), so y is the image of a real number. Only the first
  conjunct, the one about the activation array, is used here.
-/
import proofs.«144423_g2000405802258945_pallasbulk_1296_25_alg».proof.Pre_finite_inputs
import Idealize.ShloMosaic.PureOps.Ideal
import Idealize.ShloMosaic.Lib.ReduceAll

noncomputable section

namespace Cert.SE.Finite
open Idealize.ShloMosaic

/-- The shape of rank 0 has exactly one index: two indices are functions out of the empty type. -/
instance : Subsingleton Cert.Pre_finite_inputs.S_.Idx := ⟨fun a b => funext fun d => d.elim0⟩

/-- The single-precision pattern 0x7F800000 (sign 0, exponent all ones, significand 0) denotes +∞. -/
theorem ofBits_inf : Ideal.ofBits .f32 0x7F800000#32 = (⊤ : EReal) := by
  simp [Ideal.ofBits, Ideal.ieee]

/-- An extended real whose absolute value max y (-y) is strictly below ⊤ is a real number:
    at y = ⊥ the maximum is -⊥ = ⊤, at y = ⊤ it is ⊤, and neither is below ⊤. -/
theorem real_of_abs_lt_top (y : EReal) (h : max y (-y) < ⊤) : ∃ r : ℝ, y = (r : EReal) := by
  induction y using EReal.rec with
  | bot => simp at h
  | coe r => exact ⟨r, rfl⟩
  | top => simp at h

/-- The ordered comparison "less than" returning the word 1 says a < b in the linear order of the extended reals. -/
theorem lt_of_cmp_olt (a b : EReal) (h : Ideal.cmp .olt a b = 1#1) : a < b := by
  by_contra hn
  simp [Ideal.cmp, hn] at h

/-- Under the precondition every entry of the activation array is a real number. -/
theorem real_of_pre [Cert.Pre_finite_inputs.Facts]
    (x : FVec Ideal Cert.Pre_finite_inputs.S32x256x56x56 .f32) (w1 : FVec Ideal Cert.Pre_finite_inputs.S256x16 .f32)
    (w2 : FVec Ideal Cert.Pre_finite_inputs.S16x256 .f32)
    (h : Cert.Pre_finite_inputs.fn (F := Ideal) x w1 w2 = fun _ => 1#1)
    (i : Cert.Pre_finite_inputs.S32x256x56x56.Idx) : ∃ r : ℝ, x i = (r : EReal) := by
  -- the precondition's value at the one index of the rank-0 result
  have e := congrFun h (fun a => a.elim0)
  dsimp only [Cert.Pre_finite_inputs.fn] at e
  -- a conjunction of three words is 1 exactly when each word is 1; keep the first
  simp only [andi] at e
  rw [IntOp.andi_eq_one, IntOp.andi_eq_one] at e
  obtain ⟨⟨e1, -⟩, -⟩ := e
  -- a reduction by `and` over all four axes that is 1 had a 1 at every index, in particular at i
  have p := Host.reduce_andi_all _ _ _ _ _ e1 i
  simp only [cmpf, Host.absf, broadcastInDim, constant] at p
  -- over the extended reals the element comparison reads max (x i) (-(x i)) < +∞
  change Ideal.cmp .olt (max (x i) (-(x i))) (Ideal.ofBits .f32 0x7F800000#32) = 1#1 at p
  rw [ofBits_inf] at p
  exact real_of_abs_lt_top (x i) (lt_of_cmp_olt _ _ p)

end Cert.SE.Finite

end
-- ==== Proof.LibPlainMatmul.lean ====
/-
  A plain matrix product read at an entry.

  For a product of an [M, K] matrix with a [K, N] matrix (no batch axis; the left operand contracts its
  second axis, the right operand its first), taken into the zero accumulator and read at the exact extended
  reals, entry (p, q) is the sum over k of A (p, k) * B (k, q): the accumulator contributes nothing, and the
  contraction's one-axis index is the coordinate k. The statement is generic in the three extents and in the
  dimension-number record: any record with these six lists has these operand indices.
-/
import Idealize.ShloMosaic.PureOps.Ideal.Laws
import Idealize.ShloMosaic.Lib.ValueIdx

noncomputable section

namespace Cert.SE.Lib

open Idealize.ShloMosaic Idealize.ShloMosaic.ValueIdx

variable {M K N : Nat}

/-- A coordinate of an index read at a position that is a given number is the coordinate at that number. -/
private theorem coord_val_eq {n : Nat} {d : Fin n → Nat} (j : (⟨n, d⟩ : Shape).Idx) (a b : Nat) (ha : a < n) (hb : b < n)
    (h : a = b) : (j ⟨a, ha⟩).val = (j ⟨b, hb⟩).val := by subst h; rfl

/-- The contraction of such a record has one axis, -/
theorem contr_rank_plain (d : DotDims ⟨2, ![M, K]⟩ ⟨2, ![K, N]⟩ ⟨2, ![M, N]⟩) (hlc : d.lhsContracting = [1]) :
    d.contr.rank = 1 := by rw [d.rank_contr, hlc]; rfl

/-- of extent K. -/
theorem contr_size_plain (d : DotDims ⟨2, ![M, K]⟩ ⟨2, ![K, N]⟩ ⟨2, ![M, N]⟩) (hlc : d.lhsContracting = [1])
    (h0 : 0 < d.contr.rank) : d.contr.size ⟨0, h0⟩ = K := by
  have h := d.size_contr 0 (by rw [hlc]; exact Nat.one_pos)
  rw [h]
  simp [hlc]

/-- The left operand's index at result entry (p, q) and contraction coordinate k is (p, k). -/
theorem lhsIdx_plain (d : DotDims ⟨2, ![M, K]⟩ ⟨2, ![K, N]⟩ ⟨2, ![M, N]⟩)
    (hlb : d.lhsBatch = []) (hln : d.lhsNonContracting = [0]) (hlc : d.lhsContracting = [1])
    (hr : d.contr.rank = 1) (hs : d.contr.size ⟨0, by omega⟩ = K) (p : Fin M) (q : Fin N) (k : Fin K) :
    d.lhsIdx (ix2 p q) ((contrEquiv1 d K hr hs).symm k) = ix2 p k := by
  funext a
  apply Fin.ext
  match a with
  | ⟨0, h0⟩ =>
    have hb : (⟨0, h0⟩ : Fin 2) ∉ d.lhsBatch := by rw [hlb]; exact List.not_mem_nil
    have hn : (⟨0, h0⟩ : Fin 2) ∈ d.lhsNonContracting := by rw [hln]; exact List.mem_singleton.mpr rfl
    unfold DotDims.lhsIdx
    rw [dif_neg hb, dif_pos hn]
    simp only [Fin.val_cast]
    exact coord_val_eq (ix2 p q) _ 0 _ (by decide) (by simp [hlb, hln])
  | ⟨1, h1⟩ =>
    exact (d.lhsIdx_val_of_single hlc (ix2 p q) _).trans (contrEquiv1_symm_val d K hr hs k)

/-- The right operand's index there is (k, q). -/
theorem rhsIdx_plain (d : DotDims ⟨2, ![M, K]⟩ ⟨2, ![K, N]⟩ ⟨2, ![M, N]⟩)
    (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  apply Fin.ext
  match a with
  | ⟨0, h0⟩ =>
    exact (d.rhsIdx_val_of_single hrc (ix2 p q) _).trans (contrEquiv1_symm_val d K hr hs k)
  | ⟨1, h1⟩ =>
    have hb : (⟨1, h1⟩ : Fin 2) ∉ d.rhsBatch := by rw [hrb]; exact List.not_mem_nil
    have hn : (⟨1, h1⟩ : Fin 2) ∈ d.rhsNonContracting := by rw [hrn]; exact List.mem_singleton.mpr rfl
    unfold DotDims.rhsIdx
    rw [dif_neg hb, dif_pos hn]
    simp only [Fin.val_cast]
    exact coord_val_eq (ix2 p q) _ 1 _ (by decide) (by simp [hlb, hln, hrn])

/-- Entry (p, q) of the product into the zero accumulator is the sum over k of A (p, k) * B (k, q). -/
theorem matmul_plain_apply {φ₁ φ₂ : FTy} (d : DotDims ⟨2, ![M, K]⟩ ⟨2, ![K, N]⟩ ⟨2, ![M, N]⟩)
    (hlb : d.lhsBatch = []) (hln : d.lhsNonContracting = [0]) (hlc : d.lhsContracting = [1])
    (hrb : d.rhsBatch = []) (hrn : d.rhsNonContracting = [1]) (hrc : d.rhsContracting = [0])
    (prec : Option ContractPrecision) (A : FVec Ideal ⟨2, ![M, K]⟩ φ₁) (B : FVec Ideal ⟨2, ![K, N]⟩ φ₂)
    (p : Fin M) (q : Fin N) :
    matmul d prec A B (constant (F := Ideal) ⟨2, ![M, N]⟩ .f32 0x00000000#32) (ix2 p q)
      = ∑ k : Fin K, A (ix2 p k) * B (ix2 k q) := by
  have hr : d.contr.rank = 1 := contr_rank_plain d hlc
  have hs : d.contr.size ⟨0, by omega⟩ = K := contr_size_plain d hlc _
  refine (Ideal.matmul_constant_zero_apply d prec A B (ix2 p q)).trans ?_
  rw [← Equiv.sum_comp (contrEquiv1 d K hr hs).symm]
  refine Finset.sum_congr rfl fun k _ => ?_
  rw [lhsIdx_plain d hlb hln hlc hr hs p q k, rhsIdx_plain d hlb hln hrb hrn hrc hr hs p q k]

end Cert.SE.Lib

end
-- ==== Proof.KernelBody.lean ====
/-
  What one image's pass of the kernel body stores, read at an entry.

  For one image's activations a[0, c, s] (256 channels by 3136 positions), the constant matrix o[s, l]
  (3136 by 128), and the transposed weights u[r, c] (16 by 256) and v[c, r] (256 by 16), the body computes

    pooled[c, l] = sum over s of a[0, c, s] * o[s, l]          (a matrix product: the spatial sum, scaled by o)
    hidden[r, l] = max (sum over c of u[r, c] * pooled[c, l]) 0
    gate[c, l]   = logistic (sum over r of v[c, r] * hidden[r, l])

  and stores gate with a leading unit axis. Each product is taken into the zero accumulator, so at the exact
  extended reals it is the plain sum; the shape casts that only rename a matrix to itself drop out, and the two
  that drop or add the leading unit axis read the same row-major position. The body repeats this pass for
  the four images of a block; its stored values are cut into pieces at different places of the four passes, and all four are
  this one function of their image's loads.
-/
import proofs.«144423_g2000405802258945_pallasbulk_1296_25_alg».proof.Proof.Gen.KernelIdeal.Skeleton
import proofs.«144423_g2000405802258945_pallasbulk_1296_25_alg».proof.Proof.LibPlainMatmul
import Idealize.ShloMosaic.Lib.Pipeline.Value
import Idealize.ShloMosaic.Lib.ValueIdx
import Idealize.ShloMosaic.PureOps.Ideal.Laws

noncomputable section

namespace Cert.SE.Kernel

open Idealize.ShloMosaic Idealize.ShloMosaic.ValueIdx Cert.KernelIdeal Cert.KernelIdeal.Gen

variable [Cert.KernelIdeal.Facts]

/-- One image's gate, entry (c, l), from the image's activations and the three matrices. -/
def gblk (a : FVec Ideal S1x256x3136 .f32) (o : FVec Ideal S3136x128 .f32) (u : FVec Ideal S16x256 .f32)
    (v : FVec Ideal S256x16 .f32) (ch : Fin 256) (l : Fin 128) : EReal :=
  Ideal.logistic (∑ r : Fin 16, v (ix2 ch r)
    * max (∑ c : Fin 256, u (ix2 r c) * ∑ s : Fin 3136, a (ix3 0 c s) * o (ix2 s l)) (Ideal.ofBits .f32 0x00000000#32))

/-- The first image's stored value at (0, c, l). -/
theorem pay2_apply (a : FVec Ideal S1x256x3136 .f32) (o : FVec Ideal S3136x128 .f32) (u : FVec Ideal S16x256 .f32)
    (v : FVec Ideal S256x16 .f32) (ch : Fin 256) (l : Fin 128) :
    k0_pay2 (F := Ideal) a o u v (ix3 0 ch l) = gblk a o u v ch l := by
  unfold k0_pay2
  -- the outer cast adds the unit axis: (0, c, l) and (c, l) are one row-major position
  refine (shapeCast_apply _ shapeCasts_S256x128_S1x256x128 (ix3 0 ch l) (ix2 ch l) (by
    rw [Shape.rowMajor_val_two, Shape.rowMajor_val_three]; simp)).trans ?_
  unfold gblk
  show Ideal.logistic _ = Ideal.logistic _
  refine congrArg Ideal.logistic ?_
  -- the second fully connected layer
  refine (Cert.SE.Lib.matmul_plain_apply dot_S256x16_S16x128_S256x128_1_0_0_1_n_n rfl rfl rfl rfl rfl rfl none _ _ ch l).trans ?_
  refine Finset.sum_congr rfl fun r _ => ?_
  rw [shapeCast_self]
  refine congrArg (v (ix2 ch r) * ·) ?_
  show max _ (Ideal.ofBits .f32 0x00000000#32) = max _ (Ideal.ofBits .f32 0x00000000#32)
  refine congrArg (max · (Ideal.ofBits .f32 0x00000000#32)) ?_
  -- the first fully connected layer
  refine (Cert.SE.Lib.matmul_plain_apply dot_S16x256_S256x128_S16x128_1_0_0_1_n_n rfl rfl rfl rfl rfl rfl none _ _ r l).trans ?_
  refine Finset.sum_congr rfl fun c _ => ?_
  rw [shapeCast_self]
  refine congrArg (u (ix2 r c) * ·) ?_
  -- the pooling product
  refine (Cert.SE.Lib.matmul_plain_apply dot_S256x3136_S3136x128_S256x128_1_0_0_1_n_n rfl rfl rfl rfl rfl rfl none _ _ c l).trans ?_
  refine Finset.sum_congr rfl fun s _ => ?_
  rw [shapeCast_self]
  refine congrArg (· * o (ix2 s l)) ?_
  -- the inner cast drops the unit axis
  exact shapeCast_apply a shapeCasts_S1x256x3136_S256x3136 (ix2 c s) (ix3 0 c s) (by
    rw [Shape.rowMajor_val_two, Shape.rowMajor_val_three]; simp)

/-! ## The four passes are one function

The body's stored values are cut into pieces by position, so the second and fourth images' passes are split across
two payloads each; composed, every pass is the first image's function of its own loads. -/

/-- The third image's pass. -/
theorem pay6_eq (a : Vec Ideal S1x256x3136 .f32) (o : Vec Ideal S3136x128 .f32) (u : Vec Ideal S16x256 .f32)
    (v : Vec Ideal S256x16 .f32) : k0_pay6 (F := Ideal) a o u v = k0_pay2 (F := Ideal) a o u v := rfl

/-- The second image's pass: its first half ends at the hidden layer, its second half starts at the last product. -/
theorem pay5_eq (a : Vec Ideal S1x256x3136 .f32) (o : Vec Ideal S3136x128 .f32) (u : Vec Ideal S16x256 .f32)
    (v : Vec Ideal S256x16 .f32) :
    k0_pay5 (F := Ideal) (k0_pay3 a o u) (k0_pay4 v) (constant S256x128 .f32 0x00000000#32) = k0_pay2 (F := Ideal) a o u v := rfl

/-- The fourth image's pass: its first half ends before the rectifier. -/
theorem pay1_eq (a : Vec Ideal S1x256x3136 .f32) (o : Vec Ideal S3136x128 .f32) (u : Vec Ideal S16x256 .f32)
    (v : Vec Ideal S256x16 .f32) : k0_pay1 (F := Ideal) (k0_pay7 a o u) v = k0_pay2 (F := Ideal) a o u v := rfl

end Cert.SE.Kernel

end
-- ==== Proof.KernelBlock.lean ====
/-
  The staging buffer of four images' gates after the body.

  The body stores four [1, 256, 128] slabs, slab k at offset (k, 0, 0) of the [4, 256, 128] buffer, slab k
  being the gate of image k of the staged [4, 256, 3136] block. The slabs tile the buffer, and each is the
  restriction to its rectangle of ONE function of the buffer index (y0, y1, y2): the gate of image y0 at
  channel y1, lane y2. So the buffer after the four stores is that function, whatever their order.
-/
import proofs.«144423_g2000405802258945_pallasbulk_1296_25_alg».proof.Proof.Gen.KernelIdeal.Frame
import proofs.«144423_g2000405802258945_pallasbulk_1296_25_alg».proof.Proof.KernelBody
import proofs.«144423_g2000405802258945_pallasbulk_1296_25_alg».proof.Proof.Spec
import Idealize.ShloMosaic.Lib.Pipeline.Value
import Idealize.ShloMosaic.Lib.ValueIdx

noncomputable section

namespace Cert.SE.Kernel

open Idealize.ShloMosaic Idealize.ShloMosaic.ValueIdx Cert.KernelIdeal Cert.KernelIdeal.Gen

/-- Entry (y0, y1, y2) of the block of gates: image y0's gate at channel y1, lane y2. -/
def gate4 (x0 : Vec Ideal S4x256x3136 .f32) (o : Vec Ideal S3136x128 .f32) (u : Vec Ideal S16x256 .f32)
    (v : Vec Ideal S256x16 .f32) : S4x256x128.Idx → EReal := fun y =>
  gblk (fun z => x0 (ix3 (y 0) (z 1) (z 2))) o u v (y 1) (y 2)

theorem hz2 : (![0, 0] : Fin 2 → Nat) = fun _ => 0 := funext fun a => by fin_cases a <;> rfl

/-- The gate of one image depends on the image's activations only through their entries, and on the three
    matrices as given. -/
theorem gblk_congr {a a' : FVec Ideal S1x256x3136 .f32} {o o' : FVec Ideal S3136x128 .f32} {u u' : FVec Ideal S16x256 .f32}
    {v v' : FVec Ideal S256x16 .f32} (ha : ∀ (c : Fin 256) (s : Fin 3136), a (ix3 0 c s) = a' (ix3 0 c s))
    (ho : o = o') (hu : u = u') (hv : v = v') (ch : Fin 256) (l : Fin 128) :
    gblk a o u v ch l = gblk a' o' u' v' ch l := by
  subst ho hu hv
  unfold gblk
  simp only [ha]

/-- Slab k's rectangle sits at (k, 0, 0): its entry (0, c, l) is the buffer's entry (k, c, l). -/
theorem slab_emb (k : Nat) (hk : k < 4) (hout : ∀ a, (![k, 0, 0] : Fin 3 → Nat) a + S1x256x128.size a ≤ S4x256x128.size a)
    (ch : Fin 256) (l : Fin 128) :
    (Rect.unit (s := S4x256x128) ![k, 0, 0] S1x256x128.size hout).emb (ix3 0 ch l) = ix3 (⟨k, hk⟩ : Fin 4) ch l := by
  funext a; apply Fin.ext
  match a with
  | ⟨0, _⟩ => show k + 1 * 0 = k; omega
  | ⟨1, _⟩ => show 0 + 1 * ch.val = ch.val; omega
  | ⟨2, _⟩ => show 0 + 1 * l.val = l.val; omega

/-- Image k's activations are loaded through the rectangle at (k, 0, 0) of the staged block. -/
theorem slab_ld (x0 : Vec Ideal S4x256x3136 .f32) (k : Nat) (hk : k < 4)
    (hin : ∀ a, (![k, 0, 0] : Fin 3 → Nat) a + S1x256x3136.size a ≤ S4x256x3136.size a) (c' : Fin 256) (s : Fin 3136) :
    View.ld x0 (Rect.unit (s := S4x256x3136) ![k, 0, 0] S1x256x3136.size hin) (ix3 0 c' s) = x0 (ix3 (⟨k, hk⟩ : Fin 4) c' s) := by
  show x0 ((Rect.unit (s := S4x256x3136) ![k, 0, 0] S1x256x3136.size hin).idx (ix3 0 c' s)) = x0 (ix3 (⟨k, hk⟩ : Fin 4) c' s)
  refine congrArg x0 ?_
  funext a; apply Fin.ext
  match a with
  | ⟨0, _⟩ => show k + 1 * 0 = k; omega
  | ⟨1, _⟩ => show 0 + 1 * c'.val = c'.val; omega
  | ⟨2, _⟩ => show 0 + 1 * s.val = s.val; omega

/-- The three matrices are loaded whole. -/
theorem ld_o (x1 : Vec Ideal S3136x128 .f32) : View.ld x1 r0_1 = x1 := by
  simp only [View.ld_unit_zero (S := S3136x128) hz2]
theorem ld_u (x2 : Vec Ideal S16x256 .f32) : View.ld x2 r0_2 = x2 := by
  simp only [View.ld_unit_zero (S := S16x256) hz2]
theorem ld_v (x3 : Vec Ideal S256x16 .f32) : View.ld x3 r0_3 = x3 := by
  simp only [View.ld_unit_zero (S := S256x16) hz2]

/-- The block function at (k, c, l) is image k's gate. -/
theorem gate4_ix3 (x0 : Vec Ideal S4x256x3136 .f32) (x1 : Vec Ideal S3136x128 .f32) (x2 : Vec Ideal S16x256 .f32)
    (x3 : Vec Ideal S256x16 .f32) (k : Fin 4) (ch : Fin 256) (l : Fin 128) :
    gate4 x0 x1 x2 x3 (ix3 k ch l) = gblk (fun z => x0 (ix3 k (z 1) (z 2))) x1 x2 x3 ch l := rfl

set_option maxHeartbeats 100000 in
/-- Slab k's stored value is the block function on slab k's rectangle. -/
theorem slab_ok (x0 : Vec Ideal S4x256x3136 .f32) (x1 : Vec Ideal S3136x128 .f32) (x2 : Vec Ideal S16x256 .f32)
    (x3 : Vec Ideal S256x16 .f32) (k : Nat) (hk : k < 4)
    (hin : ∀ a, (![k, 0, 0] : Fin 3 → Nat) a + S1x256x3136.size a ≤ S4x256x3136.size a)
    (hout : ∀ a, (![k, 0, 0] : Fin 3 → Nat) a + S1x256x128.size a ≤ S4x256x128.size a)
    (ch : Fin 256) (l : Fin 128) :
    k0_pay2 (F := Ideal) (View.ld x0 (Rect.unit (s := S4x256x3136) ![k, 0, 0] S1x256x3136.size hin)) (View.ld x1 r0_1)
        (View.ld x2 r0_2) (View.ld x3 r0_3) (ix3 0 ch l)
      = gate4 x0 x1 x2 x3 ((Rect.unit (s := S4x256x128) ![k, 0, 0] S1x256x128.size hout).emb (ix3 0 ch l)) := by
  refine (pay2_apply _ _ _ _ ch l).trans ?_
  rw [slab_emb k hk hout ch l, gate4_ix3]
  exact gblk_congr (fun c' s => slab_ld x0 k hk hin c' s) (ld_o x1) (ld_u x2) (ld_v x3) ch l

/-- The same at any entry of the slab: its leading coordinate is zero. -/
theorem slab_ok_x (x0 : Vec Ideal S4x256x3136 .f32) (x1 : Vec Ideal S3136x128 .f32) (x2 : Vec Ideal S16x256 .f32)
    (x3 : Vec Ideal S256x16 .f32) (k : Nat) (hk : k < 4)
    (hin : ∀ a, (![k, 0, 0] : Fin 3 → Nat) a + S1x256x3136.size a ≤ S4x256x3136.size a)
    (hout : ∀ a, (![k, 0, 0] : Fin 3 → Nat) a + S1x256x128.size a ≤ S4x256x128.size a)
    (x : S1x256x128.Idx) :
    k0_pay2 (F := Ideal) (View.ld x0 (Rect.unit (s := S4x256x3136) ![k, 0, 0] S1x256x3136.size hin)) (View.ld x1 r0_1)
        (View.ld x2 r0_2) (View.ld x3 r0_3) x
      = gate4 x0 x1 x2 x3 ((Rect.unit (s := S4x256x128) ![k, 0, 0] S1x256x128.size hout).emb x) := by
  obtain ⟨z, ch, l, rfl⟩ : ∃ (z : Fin 1) (ch : Fin 256) (l : Fin 128), x = ix3 z ch l := ⟨x 0, x 1, x 2, eq_ix3 x⟩
  obtain rfl : z = 0 := Subsingleton.elim _ _
  exact slab_ok x0 x1 x2 x3 k hk hin hout ch l

set_option maxHeartbeats 400000 in
/-- The staging buffer after the body's four stores is the block of gates: the four slabs tile it, and each
    is the block function on its rectangle. -/
theorem out0_4_eq (x0 : Vec Ideal S4x256x3136 .f32) (x1 : Vec Ideal S3136x128 .f32) (x2 : Vec Ideal S16x256 .f32)
    (x3 : Vec Ideal S256x16 .f32) : out0_4 (F := Ideal) x0 x1 x2 x3 = gate4 x0 x1 x2 x3 := by
  funext y
  unfold out0_4
  refine View.canon_apply_of_pieces (Val := Elt Ideal) (gate4 x0 x1 x2 x3) _ ?_ y (cover0_4 _ _ _ _ y)
  intro p hp
  simp only [List.mem_cons, List.not_mem_nil, or_false] at hp
  rcases hp with rfl | rfl | rfl | rfl
  · intro x; exact (congrFun (pay1_eq _ _ _ _) x).trans (slab_ok_x x0 x1 x2 x3 3 (by decide) Facts₀.inb_S4x256x3136_S1x256x3136_3_0_0 Facts₀.inb_S4x256x128_S1x256x128_3_0_0 x)
  · intro x; exact (congrFun (pay6_eq _ _ _ _) x).trans (slab_ok_x x0 x1 x2 x3 2 (by decide) Facts₀.inb_S4x256x3136_S1x256x3136_2_0_0 Facts₀.inb_S4x256x128_S1x256x128_2_0_0 x)
  · intro x; exact (congrFun (pay5_eq _ _ _ _) x).trans (slab_ok_x x0 x1 x2 x3 1 (by decide) Facts₀.inb_S4x256x3136_S1x256x3136_1_0_0 Facts₀.inb_S4x256x128_S1x256x128_1_0_0 x)
  · intro x; exact slab_ok_x x0 x1 x2 x3 0 (by decide) Facts₀.inb_S4x256x3136_S1x256x3136_0_0_0 Facts₀.inb_S4x256x128_S1x256x128_0_0_0 x

/-- When the staged blocks are what the windows fetch — image k of the block is image b of the flattened
    activations, the constant matrix is filled with the factor, and the two weight blocks are the transposed
    weights — the block function at (k, c, l) is the first arrangement's gate of image b at channel c, at
    every lane l. -/
theorem gate4_eq_gateK (X3 : Cert.SE.SX3.Idx → EReal) (W1 : Cert.SE.SW1.Idx → EReal) (W2 : Cert.SE.SW2.Idx → EReal)
    (x0 : Vec Ideal S4x256x3136 .f32) (x1 : Vec Ideal S3136x128 .f32) (x2 : Vec Ideal S16x256 .f32)
    (x3 : Vec Ideal S256x16 .f32) (b : Fin 32) (k : Fin 4)
    (h0 : ∀ (c : Fin 256) (s : Fin 3136), x0 (ix3 k c s) = X3 (ix3 b c s))
    (h1 : x1 = fun _ => Cert.SE.kap)
    (h2 : x2 = fun j => W1 (ix2 (j 1) (j 0)))
    (h3 : x3 = fun j => W2 (ix2 (j 1) (j 0)))
    (ch : Fin 256) (l : Fin 128) :
    gate4 x0 x1 x2 x3 (ix3 k ch l) = Cert.SE.gateK X3 W1 W2 b ch := by
  rw [gate4_ix3]
  refine (gblk_congr (a' := fun z => X3 (ix3 b (z 1) (z 2))) (fun c s => h0 c s) h1 h2 h3 ch l).trans ?_
  rfl

end Cert.SE.Kernel

end
-- ==== Proof.KernelEntry.lean ====
/-
  The arrays as the pipelined region finds them. Before the region the program applies five operations to its
  inputs: the activations [32, 256, 56, 56] are reshaped to [32, 256, 3136]; the float word nearest 1/3136 is
  broadcast to a [3136, 128] matrix; each weight matrix is transposed. Read at an index these are: the activation at
  row s / 56 and column s % 56 of the merged position s (the same row-major position); the one factor everywhere;
  and the weight entry with its two coordinates exchanged.
-/
import proofs.«144423_g2000405802258945_pallasbulk_1296_25_alg».proof.Proof.Gen.KernelIdeal.Frame
import proofs.«144423_g2000405802258945_pallasbulk_1296_25_alg».proof.Proof.Spec
import Idealize.ShloMosaic.Lib.Pipeline.Value
import Idealize.ShloMosaic.Lib.ValueIdx
import Idealize.ShloMosaic.Lib.StableHlo.Run

noncomputable section

namespace Cert.SE.Kernel
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The merged activations as the operations write them: the launched activations, reshaped. -/
theorem V_v0_term : (V m c main_v0 : S32x256x3136.Idx → EReal)
    = shapeCast S32x256x3136 (m ((c : Thread nD τ).loc main_arg0) : S32x256x56x56.Idx → EReal) shapeCasts_S32x256x56x56_S32x256x3136 := by
  show StableHlo.after hostOps0 (fun b => m (c, b)) (Proc.devRef .tc main_v0) = _
  after_results
  rfl

/-- The constant matrix as the operations write it: one float word, broadcast. -/
theorem V_v1_term : (V m c main_v1 : S3136x128.Idx → EReal)
    = broadcastInDim S3136x128 ![] bcast_S_S3136x128 (constant (F := Ideal) S_ .f32 0x39A72F05#32) := by
  show StableHlo.after hostOps0 (fun b => m (c, b)) (Proc.devRef .tc main_v1) = _
  after_results

/-- The first weight matrix as the operations write it: the launched one, transposed. -/
theorem V_v2_term : (V m c main_v2 : S16x256.Idx → EReal)
    = transpose S16x256 [1, 0] (m ((c : Thread nD τ).loc main_arg1) : S256x16.Idx → EReal) transposes_S256x16_S16x256_1_0 := by
  show StableHlo.after hostOps0 (fun b => m (c, b)) (Proc.devRef .tc main_v2) = _
  after_results

/-- The second weight matrix as the operations write it: the launched one, transposed. -/
theorem V_v3_term : (V m c main_v3 : S256x16.Idx → EReal)
    = transpose S256x16 [1, 0] (m ((c : Thread nD τ).loc main_arg2) : S16x256.Idx → EReal) transposes_S16x256_S256x16_1_0 := by
  show StableHlo.after hostOps0 (fun b => m (c, b)) (Proc.devRef .tc main_v3) = _
  after_results

/-- Reshaping [32, 256, 56, 56] to [32, 256, 3136] merges the two spatial axes: position s of the merged axis holds
    the entry at row s / 56, column s % 56, since (s / 56) * 56 + s % 56 = s is the same row-major position. -/
theorem flat_cast (x : S32x256x56x56.Idx → EReal) :
    shapeCast S32x256x3136 x shapeCasts_S32x256x56x56_S32x256x3136 = Cert.SE.flat x := by
  funext k
  have h2 : (k 2).val < 3136 := (k 2).isLt
  unfold Cert.SE.flat
  refine shapeCast_apply (s := S32x256x56x56) (t := S32x256x3136) x _ k _ ?_
  refine (Shape.rowMajor_val_four _).trans (Eq.trans ?_ (Shape.rowMajor_val_three _).symm)
  show (((k 0).val * 256 + (k 1).val) * 56 + (k 2).val / 56) * 56 + (k 2).val % 56
    = ((k 0).val * 256 + (k 1).val) * 3136 + (k 2).val
  omega

/-- The region finds the activations with the two spatial axes merged. -/
theorem V_v0 : (V m c main_v0 : S32x256x3136.Idx → EReal) = Cert.SE.flat (m ((c : Thread nD τ).loc main_arg0)) :=
  (V_v0_term m c).trans (flat_cast _)

/-- The region finds the constant matrix filled with the one factor. -/
theorem V_v1 : (V m c main_v1 : S3136x128.Idx → EReal) = fun _ => Cert.SE.kap := by
  refine (V_v1_term m c).trans ?_
  funext j
  exact broadcastInDim_apply _ _ _ j ix0 (fun a => a.elim0)

/-- The region finds the first weight matrix transposed: entry (r, c') is the launched entry (c', r). -/
theorem V_v2 (r : Fin 16) (c' : Fin 256) :
    (V m c main_v2 : S16x256.Idx → EReal) (ix2 r c') = m ((c : Thread nD τ).loc main_arg1) (ix2 c' r) := by
  rw [V_v2_term m c]
  exact transpose_apply _ _ _ (ix2 r c') (ix2 c' r) (fun b => match b with | ⟨0, _⟩ => rfl | ⟨1, _⟩ => rfl)

/-- The region finds the second weight matrix transposed: entry (c', r) is the launched entry (r, c'). -/
theorem V_v3 (c' : Fin 256) (r : Fin 16) :
    (V m c main_v3 : S256x16.Idx → EReal) (ix2 c' r) = m ((c : Thread nD τ).loc main_arg2) (ix2 r c') := by
  rw [V_v3_term m c]
  exact transpose_apply _ _ _ (ix2 c' r) (ix2 r c') (fun b => match b with | ⟨0, _⟩ => rfl | ⟨1, _⟩ => rfl)

end Cert.SE.Kernel
end
-- ==== Proof.KernelArray.lean ====
/-
  The array of gates after the run of the kernel's grid.

  Grid point t stages images 4t .. 4t+3 of the flattened activations (block t along the batch axis of a
  [32, 256, 3136] array cut into [4, 256, 3136] blocks) together with the whole constant matrix and the two
  whole transposed weight matrices, and writes back block t of the [32, 256, 128] result. The block it writes
  is the block of gates of those four images, which is block t of ONE array: entry (b, c, l) is the first
  arrangement's gate of image b at channel c, whatever the lane l. The eight blocks tile the result, so after
  the run the result is that array.
-/
import proofs.«144423_g2000405802258945_pallasbulk_1296_25_alg».proof.Proof.Gen.KernelIdeal.Frame
import proofs.«144423_g2000405802258945_pallasbulk_1296_25_alg».proof.Proof.KernelBlock
import proofs.«144423_g2000405802258945_pallasbulk_1296_25_alg».proof.Proof.KernelEntry
import proofs.«144423_g2000405802258945_pallasbulk_1296_25_alg».proof.Proof.Spec
import Idealize.ShloMosaic.Lib.Pipeline.Value
import Idealize.ShloMosaic.Lib.ValueIdx

noncomputable section

namespace Cert.SE.Kernel

open Idealize.ShloMosaic Idealize.ShloMosaic.TcCoe Idealize.ShloMosaic.ValueIdx Idealize.SL.Sem
open Cert.KernelIdeal Cert.KernelIdeal.Gen

/-- The array of gates: entry (b, c, l) is image b's gate at channel c, at every lane. -/
def gates (X : Cert.SE.SX.Idx → EReal) (W1 : Cert.SE.SW1.Idx → EReal) (W2 : Cert.SE.SW2.Idx → EReal) :
    S32x256x128.Idx → EReal := fun i => Cert.SE.gateK (Cert.SE.flat X) W1 W2 (i 0) (i 1)

/-- The windows' index maps, decided over the eight grid points: the activations' and the result's blocks move
    with the point along the batch axis; the three matrices are always block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- At point t, with the staged blocks as below, the block of gates at y is the array of gates at the index
    of the result that y is written to: stated over plain vectors and indices. -/
theorem point_value (X : Cert.SE.SX.Idx → EReal) (W1 : Cert.SE.SW1.Idx → EReal) (W2 : Cert.SE.SW2.Idx → EReal)
    (x0 : Vec Ideal S4x256x3136 .f32) (x1 : Vec Ideal S3136x128 .f32) (x2 : Vec Ideal S16x256 .f32)
    (x3 : Vec Ideal S256x16 .f32) (tv : Nat)
    (h0 : ∀ (k : Fin 4) (c : Fin 256) (s : Fin 3136) (b : Fin 32), b.val = 4 * tv + k.val →
      x0 (ix3 k c s) = Cert.SE.flat X (ix3 b c s))
    (h1 : x1 = fun _ => Cert.SE.kap) (h2 : x2 = fun j => W1 (ix2 (j 1) (j 0))) (h3 : x3 = fun j => W2 (ix2 (j 1) (j 0)))
    (y : S4x256x128.Idx) (i : S32x256x128.Idx) (hi0 : (i 0).val = 4 * tv + (y 0).val) (hi1 : (i 1).val = (y 1).val) :
    gate4 x0 x1 x2 x3 y = gates X W1 W2 i := by
  obtain ⟨k, ch, l, rfl⟩ : ∃ (k : Fin 4) (ch : Fin 256) (l : Fin 128), y = ix3 k ch l := ⟨y 0, y 1, y 2, eq_ix3 y⟩
  obtain ⟨b, ch', l', rfl⟩ : ∃ (b : Fin 32) (ch' : Fin 256) (l' : Fin 128), i = ix3 b ch' l' := ⟨i 0, i 1, i 2, eq_ix3 i⟩
  have hb : b.val = 4 * tv + k.val := hi0
  obtain rfl : ch = ch' := (Fin.ext hi1).symm
  exact gate4_eq_gateK (Cert.SE.flat X) W1 W2 x0 x1 x2 x3 b k (fun c s => h0 k c s b hb) h1 h2 h3 ch l

variable (m : (ℓ : Loc nD τ sig) → Buf (Elt Ideal) ℓ) (c : Dev nD)

/-! ## The staged blocks at a point -/

/-- Image k of the activations' block at point t is image 4t + k of the flattened activations. -/
theorem blk0 (t : Fin cfg0.N) (k : Fin 4) (c' : Fin 256) (s : Fin 3136) (b : Fin 32) (hb : b.val = 4 * t.val + k.val) :
    iblk m c 0 t (ix3 k c' s) = Cert.SE.flat (m ((c : Thread nD τ).loc main_arg0)) (ix3 b c' s) := by
  obtain ⟨e0, e1, e2, -⟩ := idx_facts t
  show V m c main_v0 (((cfg0.win 0).blk t).view.emb (ix3 k c' s)) = _
  rw [V_v0]
  refine congrArg _ ?_
  funext a; apply Fin.ext
  match a with
  | ⟨0, _⟩ => show win0_0.index t (0 : Fin 3) * 4 + 1 * k.val = b.val; omega
  | ⟨1, _⟩ => show win0_0.index t (1 : Fin 3) * 256 + 1 * c'.val = c'.val; omega
  | ⟨2, _⟩ => show win0_0.index t (2 : Fin 3) * 3136 + 1 * s.val = s.val; omega

/-- The constant matrix's block is the whole matrix: every entry the factor. -/
theorem blk1 (t : Fin cfg0.N) : (iblk m c 1 t : S3136x128.Idx → EReal) = fun _ => Cert.SE.kap := by
  funext y
  show V m c main_v1 (((cfg0.win 1).blk t).view.emb y) = _
  rw [V_v1]

/-- The first weight block is the whole transposed first weight matrix. -/
theorem blk2 (t : Fin cfg0.N) :
    (iblk m c 2 t : S16x256.Idx → EReal) = fun j => m ((c : Thread nD τ).loc main_arg1) (ix2 (j 1) (j 0)) := by
  funext y
  obtain ⟨r, c', rfl⟩ : ∃ (r : Fin 16) (c' : Fin 256), y = ix2 r c' := ⟨y 0, y 1, eq_ix2 y⟩
  obtain ⟨-, -, -, -, -, e0, e1, -⟩ := idx_facts t
  show V m c main_v2 (((cfg0.win 2).blk t).view.emb (ix2 r c')) = m ((c : Thread nD τ).loc main_arg1) (ix2 c' r)
  have e : ((cfg0.win 2).blk t).view.emb (ix2 r c') = ix2 r c' := by
    funext a; apply Fin.ext
    match a with
    | ⟨0, _⟩ => show win0_2.index t (0 : Fin 2) * 16 + 1 * r.val = r.val; omega
    | ⟨1, _⟩ => show win0_2.index t (1 : Fin 2) * 256 + 1 * c'.val = c'.val; omega
  rw [e]
  exact V_v2 m c r c'

/-- The second weight block is the whole transposed second weight matrix. -/
theorem blk3 (t : Fin cfg0.N) :
    (iblk m c 3 t : S256x16.Idx → EReal) = fun j => m ((c : Thread nD τ).loc main_arg2) (ix2 (j 1) (j 0)) := by
  funext y
  obtain ⟨c', r, rfl⟩ : ∃ (c' : Fin 256) (r : Fin 16), y = ix2 c' r := ⟨y 0, y 1, eq_ix2 y⟩
  obtain ⟨-, -, -, -, -, -, -, e0, e1, -⟩ := idx_facts t
  show V m c main_v3 (((cfg0.win 3).blk t).view.emb (ix2 c' r)) = m ((c : Thread nD τ).loc main_arg2) (ix2 r c')
  have e : ((cfg0.win 3).blk t).view.emb (ix2 c' r) = ix2 c' r := by
    funext a; apply Fin.ext
    match a with
    | ⟨0, _⟩ => show win0_3.index t (0 : Fin 2) * 256 + 1 * c'.val = c'.val; omega
    | ⟨1, _⟩ => show win0_3.index t (1 : Fin 2) * 16 + 1 * r.val = r.val; omega
  rw [e]
  exact V_v3 m c c' r

/-! ## What a point writes back, and the array after the run -/

/-- WHAT POINT t WRITES BACK is block t of the array of gates. -/
theorem flushed_eq (t : Fin cfg0.N) :
    (dats m 0 c).flushed 4 t = ((cfg0.win 4).blk t).view.read (Elt Ideal)
      (gates (m ((c : Thread nD τ).loc main_arg0)) (m ((c : Thread nD τ).loc main_arg1)) (m ((c : Thread nD τ).loc main_arg2))) := by
  show (cfg0.win 4).cut (grid0.coords t) ((dats m 0 c).after 4 t) = _
  rw [after0_4, out0_4_eq]
  obtain ⟨-, -, -, -, -, -, -, -, -, e0, e1, e2⟩ := idx_facts t
  funext y
  show gate4 (iblk m c 0 t) (iblk m c 1 t) (iblk m c 2 t) (iblk m c 3 t) y
    = gates (m ((c : Thread nD τ).loc main_arg0)) (m ((c : Thread nD τ).loc main_arg1)) (m ((c : Thread nD τ).loc main_arg2))
        (((cfg0.win 4).blk t).view.emb y)
  refine point_value _ _ _ _ _ _ _ t.val (fun k c' s b hb => blk0 m c t k c' s b hb) (blk1 m c t) (blk2 m c t) (blk3 m c t)
    y _ ?_ ?_
  · show win0_4.index t (0 : Fin 3) * 4 + 1 * (y 0).val = 4 * t.val + (y 0).val; omega
  · show win0_4.index t (1 : Fin 3) * 256 + 1 * (y 1).val = (y 1).val; omega

/-- An index of the result is in point t's block iff each coordinate is in the block's range on its axis. -/
theorem mem_blk4 (t : Fin cfg0.N) (i : S32x256x128.Idx) :
    i ∈ ((cfg0.win 4).blk t).view.set ↔ ∀ a : Fin 3, win0_4.index t a * S4x256x128.size a ≤ (i a).val
      ∧ (i a).val < win0_4.index t a * S4x256x128.size a + S4x256x128.size a := by
  show i ∈ ((View.whole main_v4).slice (win0_4.rect t)).set ↔ _
  rw [View.set_slice_whole, Rect.mem_set_unit]
  exact Iff.rfl

/-- Every index of the result is in the block of the point its image belongs to: point b / 4. -/
theorem cover (i : S32x256x128.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 128 := (i 2).isLt
  have hN : grid0.N = 8 := N_0
  have hlt : (i 0).val / 4 < cfg0.N := by show (i 0).val / 4 < grid0.N; rw [hN]; omega
  refine ⟨⟨(i 0).val / 4, hlt⟩, flush0_4 _, ?_⟩
  obtain ⟨-, -, -, -, -, -, -, -, -, e0, e1, e2⟩ := idx_facts ⟨(i 0).val / 4, hlt⟩
  have e0' : win0_4.index ⟨(i 0).val / 4, hlt⟩ (0 : Fin 3) = (i 0).val / 4 := e0
  rw [mem_blk4]
  intro a
  match a with
  | ⟨0, _⟩ =>
    show win0_4.index ⟨(i 0).val / 4, hlt⟩ (0 : Fin 3) * 4 ≤ (i 0).val
      ∧ (i 0).val < win0_4.index ⟨(i 0).val / 4, hlt⟩ (0 : Fin 3) * 4 + 4
    omega
  | ⟨1, _⟩ =>
    show win0_4.index ⟨(i 0).val / 4, hlt⟩ (1 : Fin 3) * 256 ≤ (i 1).val
      ∧ (i 1).val < win0_4.index ⟨(i 0).val / 4, hlt⟩ (1 : Fin 3) * 256 + 256
    omega
  | ⟨2, _⟩ =>
    show win0_4.index ⟨(i 0).val / 4, hlt⟩ (2 : Fin 3) * 128 ≤ (i 2).val
      ∧ (i 2).val < win0_4.index ⟨(i 0).val / 4, hlt⟩ (2 : Fin 3) * 128 + 128
    omega

/-- THE ARRAY AFTER THE RUN is the array of gates. -/
theorem final : (dats m 0 c).arrAt 4 cfg0.N
    = gates (m ((c : Thread nD τ).loc main_arg0)) (m ((c : Thread nD τ).loc main_arg1)) (m ((c : Thread nD τ).loc main_arg2)) :=
  (dats m 0 c).arrAt_eq_of_cover 4 _ (fun t _ => flushed_eq m c t) cover

end Cert.SE.Kernel

end
-- ==== Proof.KernelTail.lean ====
/-
  The program's closing operations. After the pipelined region four operations produce the result: column 0 of the
  region's [32, 256, 128] array is sliced out, reshaped to [32, 256, 1, 1], broadcast over the two spatial axes, and
  multiplied into the activations. At (b, ch, h, w) the result is therefore the activation there times the region
  array's entry at (b, ch, 0). The activations are untouched by the region (no window of the pipeline is that
  array) and by the operations before it; the region's array is the pipeline's fifth window array.
-/
import proofs.«144423_g2000405802258945_pallasbulk_1296_25_alg».proof.Proof.Gen.KernelIdeal.Frame
import proofs.«144423_g2000405802258945_pallasbulk_1296_25_alg».proof.Proof.Spec
import Idealize.ShloMosaic.Lib.Pipeline.Value
import Idealize.ShloMosaic.Lib.ValueIdx
import Idealize.ShloMosaic.Lib.StableHlo.Run

noncomputable section

namespace Cert.SE.Kernel
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The four closing operations read at an index. Slicing column 0 of a [32, 256, 128] array, reshaping the
    [32, 256, 1] slice to [32, 256, 1, 1], broadcasting it over the two spatial axes and multiplying gives, at
    (b, ch, h, w), the first array's entry there times the second array's entry at (b, ch, 0). -/
theorem tail_read (A0 : S32x256x56x56.Idx → EReal) (A4 : S32x256x128.Idx → EReal) (b : Fin 32) (ch : Fin 256) (h w : Fin 56) :
    mulf (F := Ideal) (φ := .f32) A0
        (broadcastInDim S32x256x56x56 ![0, 1, 2, 3] bcast_S32x256x1x1_S32x256x56x56_0_1_2_3
          (shapeCast S32x256x1x1 (extractStridedSlice S32x256x1 ![0, 0, 0] A4 slices_S32x256x128_S32x256x1_0_0_0)
            shapeCasts_S32x256x1_S32x256x1x1)) (ix4 b ch h w)
      = A0 (ix4 b ch h w) * A4 (ix3 b ch 0) := by
  rw [mulf_apply]
  refine congrArg (A0 (ix4 b ch h w) * ·) ?_
  -- the broadcast: the operand's two unit axes are read at 0
  refine (broadcastInDim_apply (s := S32x256x1x1) (t := S32x256x56x56) _ _ _ (ix4 b ch h w) (ix4 b ch 0 0)
    (fun a => match a with | ⟨0, _⟩ => rfl | ⟨1, _⟩ => rfl | ⟨2, _⟩ => rfl | ⟨3, _⟩ => rfl)).trans ?_
  -- the reshape: (b, ch, 0, 0) and (b, ch, 0) are one row-major position
  refine (shapeCast_apply (s := S32x256x1) (t := S32x256x1x1) _ _ (ix4 b ch 0 0) (ix3 b ch 0)
    ((Shape.rowMajor_val_three _).trans (Eq.trans (by
      show (b.val * 256 + ch.val) * 1 + 0 = ((b.val * 256 + ch.val) * 1 + 0) * 1 + 0
      omega) (Shape.rowMajor_val_four _).symm))).trans ?_
  -- the slice at offset (0, 0, 0)
  exact extractStridedSlice_apply (s := S32x256x128) (t := S32x256x1) _ A4 _ (ix3 b ch 0) (ix3 b ch 0)
    (fun a => match a with
      | ⟨0, _⟩ => by show b.val = 0 + b.val; omega
      | ⟨1, _⟩ => by show ch.val = 0 + ch.val; omega
      | ⟨2, _⟩ => by show 0 = 0 + 0; omega)

/-- The launched activations are still in place after the region: no window of the pipeline is that array,
    and no operation before the region writes it. -/
theorem tail_arg0 :
    Pipeline.withArrays spec0 c (V0 m c) (fun w => (dats m 0 c).arrAt w cfg0.N) (Proc.devRef .tc main_arg0)
      = m ((c : Thread nD τ).loc main_arg0) :=
  (Pipeline.withArrays_of_ne spec0 c (V0 m c) _ main_arg0
    (by exact (by decide : ∀ w, Pipeline.arrRef spec0 w ≠ main_arg0))).trans (V_main_arg0 m c)

/-- The region's result array is the pipeline's fifth window array. -/
theorem tail_v4 (G : S32x256x128.Idx → EReal) (hG : (dats m 0 c).arrAt 4 cfg0.N = G) :
    Pipeline.withArrays spec0 c (V0 m c) (fun w => (dats m 0 c).arrAt w cfg0.N) (Proc.devRef .tc main_v4) = G :=
  (Pipeline.withArrays_arr spec0 launch0.win.arr_inj c (V0 m c) _ 4).trans hG

/-- After the region the program multiplies the activations by the region's result, read at column 0 and spread
    over the two spatial axes: the final array at (b, ch, h, w) is the activation there times the result's
    entry at (b, ch, 0). -/
theorem tail_v8 (G : S32x256x128.Idx → EReal) (hG : (dats m 0 c).arrAt 4 cfg0.N = G) (b : Fin 32) (ch : Fin 256) (h w : Fin 56) :
    (Pipeline.afterTail₀ cfgs (dats m) 0 (V0 m) [hostOps1] c main_v8 : S32x256x56x56.Idx → EReal) (ix4 b ch h w)
      = HMul.hMul (α := EReal) (β := EReal) (γ := EReal) (m ((c : Thread nD τ).loc main_arg0) (ix4 b ch h w)) (G (ix3 b ch 0)) := by
  have e0 := tail_arg0 m c
  have e4 := tail_v4 m c G hG
  have e : (Pipeline.afterTail₀ cfgs (dats m) 0 (V0 m) [hostOps1] c main_v8 : S32x256x56x56.Idx → EReal)
      = mulf (F := Ideal) (φ := .f32) (m ((c : Thread nD τ).loc main_arg0))
          (broadcastInDim S32x256x56x56 ![0, 1, 2, 3] bcast_S32x256x1x1_S32x256x56x56_0_1_2_3
            (shapeCast S32x256x1x1 (extractStridedSlice S32x256x1 ![0, 0, 0] G slices_S32x256x128_S32x256x1_0_0_0)
              shapeCasts_S32x256x1_S32x256x1x1)) := by
    unfold Pipeline.afterTail₀
    show StableHlo.after hostOps1 (Pipeline.withArrays spec0 c (V0 m c) fun w => (dats m 0 c).arrAt w cfg0.N)
      (Proc.devRef .tc main_v8) = _
    generalize Pipeline.withArrays spec0 c (V0 m c) (fun w => (dats m 0 c).arrAt w cfg0.N) = W at e0 e4 ⊢
    after_results
    rw [e0, e4]
    rfl
  exact (congrFun e _).trans (tail_read _ G b ch h w)

end Cert.SE.Kernel
end
-- ==== Proof.KernelRun.lean ====
/-
  The kernel program's run, with its result named.

  After the grid has run, the result array of the launch is the array of gates; the host operations after it
  take lane 0 of every (image, channel), reshape it to [32, 256, 1, 1], broadcast it over the 56 x 56 positions
  and multiply the activations by it. So the program's result at (b, c, h, w) is x[b, c, h, w] times the gate of
  image b at channel c: the first arrangement's result. The argument arrays end as they began.
-/
import proofs.«144423_g2000405802258945_pallasbulk_1296_25_alg».proof.Proof.Gen.KernelIdeal.Frame
import proofs.«144423_g2000405802258945_pallasbulk_1296_25_alg».proof.Proof.KernelArray
import proofs.«144423_g2000405802258945_pallasbulk_1296_25_alg».proof.Proof.KernelTail
import proofs.«144423_g2000405802258945_pallasbulk_1296_25_alg».proof.Proof.Spec
import Idealize.ShloMosaic.Lib.ValueIdx

noncomputable section

namespace Cert.SE.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The program's result after the host operations that follow the launch. -/
theorem result_eq (c : Dev nD) :
    (Pipeline.afterTail₀ cfgs (dats m) 0 (V0 m) [hostOps1] c main_v8 : S32x256x56x56.Idx → EReal)
      = Cert.SE.outK (m ((c : Thread nD τ).loc main_arg0)) (m ((c : Thread nD τ).loc main_arg1)) (m ((c : Thread nD τ).loc main_arg2)) := by
  funext i
  obtain ⟨b, ch, h, w, rfl⟩ : ∃ (b : Fin 32) (ch : Fin 256) (h w : Fin 56), i = ix4 b ch h w :=
    ⟨i 0, i 1, i 2, i 3, eq_ix4 i⟩
  rw [tail_v8 m c _ (final m c) b ch h w]
  rfl

/-- Every weakly fair execution of the kernel program terminates with its result the first arrangement's
    array of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = Cert.SE.outK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.SE.Kernel

end
-- ==== Proof.RefEntry.lean ====
/-
  The reference program's arrays as its one region finds them, and the blocks the region stages.

  The region's first array is the activations with the two spatial axes merged: position s of the merged axis is
  row s / 56 and column s % 56, because both arrays list the same entries in row-major order. Grid point t stages
  batch entry t of that array as a [1, 256, 3136] block, and both weight matrices whole; its result block sits at
  batch entry t of the result array. So a block's entry (0, c, s) is the array's entry (t, c, s), and a weight
  block's entry is the weight's.
-/
import proofs.«144423_g2000405802258945_pallasbulk_1296_25_alg».proof.Proof.Gen.ReferenceIdeal.Frame
import proofs.«144423_g2000405802258945_pallasbulk_1296_25_alg».proof.Proof.Spec
import Idealize.ShloMosaic.Lib.Pipeline.Value
import Idealize.ShloMosaic.Lib.ValueIdx

set_option maxRecDepth 16384

noncomputable section

namespace Cert.SE.Ref

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ)

/-- The region's first array is the activations with the spatial axes merged. -/
theorem entry_flat (c : Dev nD) :
    (V m c main_v0 : S32x256x3136.Idx → EReal) = Cert.SE.flat (m ((c : Thread nD τ).loc main_arg0)) := by
  have e : (V m c main_v0 : S32x256x3136.Idx → EReal)
      = shapeCast S32x256x3136 (m ((c : Thread nD τ).loc main_arg0) : S32x256x56x56.Idx → EReal)
          shapeCasts_S32x256x56x56_S32x256x3136 := by
    show StableHlo.after hostOps0 (fun b => m (c, b)) (Proc.devRef .tc main_v0) = _
    after_results
    rfl
  rw [e]
  funext k
  obtain ⟨b, c', s, rfl⟩ : ∃ (b : Fin 32) (c' : Fin 256) (s : Fin 3136), k = ix3 b c' s := ⟨k 0, k 1, k 2, eq_ix3 k⟩
  have hs : s.val < 3136 := s.isLt
  have hk : (S32x256x56x56.rowMajor (ix4 b c' (⟨s.val / 56, by omega⟩ : Fin 56) (⟨s.val % 56, by omega⟩ : Fin 56))).val
      = (S32x256x3136.rowMajor (ix3 b c' s)).val := by
    rw [Shape.rowMajor_val_three, Shape.rowMajor_val_four]
    show ((b.val * 256 + c'.val) * 56 + s.val / 56) * 56 + s.val % 56 = (b.val * 256 + c'.val) * 3136 + s.val
    omega
  exact shapeCast_apply _ _ _ _ hk

/-- The four windows' index maps over the 32 grid points: the activation block and the result block of point t sit at
    batch entry t, and the weight blocks at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a batch coordinate. -/
def pt (t : Fin cfg0.N) : Fin 32 := ⟨t.val, by have h := t.isLt; have h32 : cfg0.N = 32 := N_0; omega⟩

theorem pt_val (t : Fin cfg0.N) : (pt t).val = t.val := rfl

/-- The activation block of point t at (0, c, s) is the merged activations at (t, c, s). -/
theorem blk0_apply (c : Dev nD) (t : Fin cfg0.N) (c' : Fin 256) (s : Fin 3136) :
    (iblk m c 0 t : S1x256x3136.Idx → EReal) (ix3 0 c' s)
      = Cert.SE.flat (m ((c : Thread nD τ).loc main_arg0)) (ix3 (pt t) c' s) := by
  obtain ⟨e0, e1, e2, -⟩ := idx_facts t
  show (V m c main_v0 : S32x256x3136.Idx → EReal) (((cfg0.win 0).blk t).view.emb (ix3 0 c' s)) = _
  rw [entry_flat]
  refine congrArg (Cert.SE.flat _) ?_
  funext a
  apply Fin.ext
  match a with
  | ⟨0, _⟩ => show win0_0.index t (0 : Fin 3) * 1 + 1 * (0 : Nat) = t.val; omega
  | ⟨1, _⟩ => show win0_0.index t (1 : Fin 3) * 256 + 1 * c'.val = c'.val; omega
  | ⟨2, _⟩ => show win0_0.index t (2 : Fin 3) * 3136 + 1 * s.val = s.val; omega

/-- The first weight's block is the first weight. -/
theorem blk1_apply (c : Dev nD) (t : Fin cfg0.N) (c' : Fin 256) (r : Fin 16) :
    (iblk m c 1 t : S256x16.Idx → EReal) (ix2 c' r)
      = (m ((c : Thread nD τ).loc main_arg1) : S256x16.Idx → EReal) (ix2 c' r) := by
  obtain ⟨-, -, -, e0, e1, -⟩ := idx_facts t
  show (V m c main_arg1 : S256x16.Idx → EReal) (((cfg0.win 1).blk t).view.emb (ix2 c' r)) = _
  rw [V_main_arg1]
  refine congrArg (m ((c : Thread nD τ).loc main_arg1) : S256x16.Idx → EReal) ?_
  funext a
  apply Fin.ext
  match a with
  | ⟨0, _⟩ => show win0_1.index t (0 : Fin 2) * 256 + 1 * c'.val = c'.val; omega
  | ⟨1, _⟩ => show win0_1.index t (1 : Fin 2) * 16 + 1 * r.val = r.val; omega

/-- The second weight's block is the second weight. -/
theorem blk2_apply (c : Dev nD) (t : Fin cfg0.N) (r : Fin 16) (c' : Fin 256) :
    (iblk m c 2 t : S16x256.Idx → EReal) (ix2 r c')
      = (m ((c : Thread nD τ).loc main_arg2) : S16x256.Idx → EReal) (ix2 r c') := by
  obtain ⟨-, -, -, -, -, e0, e1, -⟩ := idx_facts t
  show (V m c main_arg2 : S16x256.Idx → EReal) (((cfg0.win 2).blk t).view.emb (ix2 r c')) = _
  rw [V_main_arg2]
  refine congrArg (m ((c : Thread nD τ).loc main_arg2) : S16x256.Idx → EReal) ?_
  funext a
  apply Fin.ext
  match a with
  | ⟨0, _⟩ => show win0_2.index t (0 : Fin 2) * 16 + 1 * r.val = r.val; omega
  | ⟨1, _⟩ => show win0_2.index t (1 : Fin 2) * 256 + 1 * c'.val = c'.val; omega

/-- The result block of point t at (0, c, s) sits in the result array at (t, c, s). -/
theorem emb3_apply (t : Fin cfg0.N) (c' : Fin 256) (s : Fin 3136) :
    (((cfg0.win 3).blk t).view.emb (ix3 0 c' s) : S32x256x3136.Idx) = ix3 (pt t) c' s := by
  obtain ⟨-, -, -, -, -, -, -, e0, e1, e2⟩ := idx_facts t
  funext a
  apply Fin.ext
  match a with
  | ⟨0, _⟩ => show win0_3.index t (0 : Fin 3) * 1 + 1 * (0 : Nat) = t.val; omega
  | ⟨1, _⟩ => show win0_3.index t (1 : Fin 3) * 256 + 1 * c'.val = c'.val; omega
  | ⟨2, _⟩ => show win0_3.index t (2 : Fin 3) * 3136 + 1 * s.val = s.val; omega

end Cert.SE.Ref

end
-- ==== Proof.RefBody.lean ====
/-
  The body of the reference program at an entry.

  The body stores, at entry (0, c, s) of its [1, 256, 3136] block, the block's entry there times the gate of channel c:
  the logistic of the sum over the 16 reduced coordinates r of the rectified hidden value at r times the second weight
  at (r, c), where the hidden value at r is the sum over the 256 channels c' of the scaled spatial sum of channel c'
  times the first weight at (c', r). Each matrix product is taken into the zero accumulator, so its entry is the plain
  sum of products; the spatial sum is a reduction along the last axis; the gate is laid out along the last axis by a
  broadcast, which reads the same value at every position s.
-/
import proofs.«144423_g2000405802258945_pallasbulk_1296_25_alg».proof.Proof.Gen.ReferenceIdeal.Skeleton
import proofs.«144423_g2000405802258945_pallasbulk_1296_25_alg».proof.Proof.Spec
import proofs.«144423_g2000405802258945_pallasbulk_1296_25_alg».proof.Proof.LibPlainMatmul
import Idealize.ShloMosaic.Lib.Pipeline.Value
import Idealize.ShloMosaic.Lib.ValueIdx
import Idealize.ShloMosaic.PureOps.Ideal.Laws

noncomputable section

namespace Cert.SE.Ref

open Idealize.ShloMosaic Idealize.ShloMosaic.ValueIdx Cert.ReferenceIdeal

/-- The sum along the last axis of a [1, 256, 3136] block, read at channel c'. -/
theorem laneSum_apply (v : FVec Ideal S1x256x3136 .f32) (h : S1x256x3136.Reduces [2] S1x256) (hφ : FKind.Formats .f32)
    (hacc : (0x00000000#32 : BitVec 32) = FKind.add.neutral .f32 hφ) (c' : Fin 256) :
    multiReduction .add [2] S1x256 v 0x00000000#32 h hφ hacc (ix2 0 c') = ∑ s' : Fin 3136, v (ix3 0 c' s') := by
  refine (Ideal.multiReduction_add_single v 0x00000000#32 h hφ hacc (ix2 0 c')).trans ?_
  refine Finset.sum_congr rfl fun k _ => congrArg v ?_
  funext a
  match a with
  | ⟨0, _⟩ => rfl
  | ⟨1, _⟩ => rfl
  | ⟨2, _⟩ => rfl

/-- A [1, 256] row laid out as a [1, 256, 1] column and spread along the last axis reads, at (0, c, s), the row at c. -/
theorem spread_apply (g : FVec Ideal S1x256 .f32) (h1 : S1x256.ShapeCasts S1x256x1) (h2 : S1x256x1.Broadcasts S1x256x3136)
    (c : Fin 256) (s : Fin 3136) :
    broadcastTo S1x256x3136 (shapeCast S1x256x1 g h1) h2 (ix3 0 c s) = g (ix2 0 c) := by
  refine (broadcastTo_apply (shapeCast S1x256x1 g h1) h2 (ix3 0 c s) (ix3 0 c 0) ?_).trans ?_
  · intro a
    match a with
    | ⟨0, _⟩ => rfl
    | ⟨1, _⟩ => rfl
    | ⟨2, _⟩ => rfl
  · refine shapeCast_apply g h1 (ix3 0 c 0) (ix2 0 c) ?_
    rw [Shape.rowMajor_val_two, Shape.rowMajor_val_three]
    show (0 : Nat) * 256 + c.val = ((0 : Nat) * 256 + c.val) * 1 + 0
    omega

/-- The body's stored value at entry (0, c, s): the block's entry there times the gate of channel c. -/
theorem body_apply (v0 : Vec Ideal S1x256x3136 .f32) (v5 : Vec Ideal S256x16 .f32) (v9 : Vec Ideal S16x256 .f32)
    (c : Fin 256) (s : Fin 3136) :
    Gen.k0_pay1 (F := Ideal) v0 v5 v9 (ix3 0 c s)
      = v0 (ix3 0 c s) * Ideal.logistic (∑ r : Fin 16,
          max (∑ c' : Fin 256, ((∑ s' : Fin 3136, v0 (ix3 0 c' s')) * Cert.SE.kap) * v5 (ix2 c' r)) Cert.SE.zer
            * v9 (ix2 r c)) := by
  unfold Gen.k0_pay1
  simp only [shapeCast_self]
  show v0 (ix3 0 c s) * _ = _
  refine congrArg (v0 (ix3 0 c s) * ·) ?_
  -- the gate, spread along the last axis, read at (0, c, s) is the gate at c
  refine (spread_apply _ _ _ c s).trans ?_
  refine congrArg Ideal.logistic ?_
  -- the second product: over the 16 reduced coordinates
  refine (Cert.SE.Lib.matmul_plain_apply _ rfl rfl rfl rfl rfl rfl _ _ _ 0 c).trans ?_
  refine Finset.sum_congr rfl fun r _ => ?_
  refine congrArg (· * v9 (ix2 r c)) ?_
  refine congrArg₂ max ?_ rfl
  -- the first product: over the 256 channels
  refine (Cert.SE.Lib.matmul_plain_apply _ rfl rfl rfl rfl rfl rfl _ _ _ 0 r).trans ?_
  refine Finset.sum_congr rfl fun c' _ => ?_
  refine congrArg (· * v5 (ix2 c' r)) ?_
  -- the scaled spatial sum of channel c'
  refine congrArg₂ (· * ·) ?_ rfl
  exact laneSum_apply v0 _ _ _ c'

end Cert.SE.Ref

end
-- ==== Proof.RefBlocks.lean ====
/-
  The reference program's result array after its region.

  Every grid point t writes back one block, batch entry t of the result array. What it writes at (0, c, s) is the
  body's stored value of the point's staged blocks: the merged activations at (t, c, s) times the gate of batch entry t
  and channel c, the gate computed from batch entry t's spatial sums and the two weights. So each block is the same
  function of the argument arrays read through the block's rectangle, the 32 blocks cover the array (entry (b, c, s)
  lies in point b's block), and the array ends holding that function.
-/
import proofs.«144423_g2000405802258945_pallasbulk_1296_25_alg».proof.Proof.RefEntry
import proofs.«144423_g2000405802258945_pallasbulk_1296_25_alg».proof.Proof.RefBody

set_option maxRecDepth 16384

noncomputable section

namespace Cert.SE.Ref

open Idealize.ShloMosaic Idealize.ShloMosaic.TcCoe Idealize.ShloMosaic.ValueIdx Idealize.SL.Sem
open Cert.ReferenceIdeal Cert.ReferenceIdeal.Gen
open Idealize.ShloMosaic.Pipeline (Dat)

variable (m : (ℓ : Loc nD τ sig) → Buf (Elt Ideal) ℓ)

/-- The result with the spatial axes merged: the merged activations times the gate of their batch entry and channel. -/
def outFlat (x : Cert.SE.SX.Idx → EReal) (w1 : Cert.SE.SW1.Idx → EReal) (w2 : Cert.SE.SW2.Idx → EReal) :
    Cert.SE.SX3.Idx → EReal := fun k =>
  Cert.SE.flat x k * Cert.SE.gateR (Cert.SE.flat x) w1 w2 (k 0) (k 1)

theorem hz3 : (![0, 0, 0] : Fin 3 → Nat) = fun _ => 0 := funext fun a => by fin_cases a <;> rfl
theorem hz2 : (![0, 0] : Fin 2 → Nat) = fun _ => 0 := funext fun a => by fin_cases a <;> rfl

/-- What point t writes back is block t of `outFlat` of the argument arrays. -/
theorem flushed_eq (c : Dev nD) (t : Fin cfg0.N) :
    (dats m 0 c).flushed 3 t = ((cfg0.win 3).blk t).view.read (Elt Ideal)
      (outFlat (m ((c : Thread nD τ).loc main_arg0)) (m ((c : Thread nD τ).loc main_arg1))
        (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S1x256x3136) hz3, View.ld_unit_zero (S := S256x16) hz2,
    View.ld_unit_zero (S := S16x256) hz2]
  funext j
  obtain ⟨a, c', s, rfl⟩ : ∃ (a : Fin 1) (c' : Fin 256) (s : Fin 3136), j = ix3 a c' s :=
    ⟨j 0, j 1, j 2, eq_ix3 j⟩
  obtain rfl : a = 0 := Subsingleton.elim _ _
  show k0_pay1 (iblk m c 0 t) (iblk m c 1 t) (iblk m c 2 t) (ix3 0 c' s)
    = outFlat (m ((c : Thread nD τ).loc main_arg0)) (m ((c : Thread nD τ).loc main_arg1))
        (m ((c : Thread nD τ).loc main_arg2)) (((cfg0.win 3).blk t).view.emb (ix3 0 c' s))
  rw [emb3_apply]
  refine (body_apply (iblk m c 0 t) (iblk m c 1 t) (iblk m c 2 t) c' s).trans ?_
  show _ = Cert.SE.flat (m ((c : Thread nD τ).loc main_arg0)) (ix3 (pt t) c' s)
    * Ideal.logistic (∑ r : Fin 16,
        max (∑ c'' : Fin 256, ((∑ s' : Fin 3136, Cert.SE.flat (m ((c : Thread nD τ).loc main_arg0)) (ix3 (pt t) c'' s'))
              * Cert.SE.kap) * (m ((c : Thread nD τ).loc main_arg1) : S256x16.Idx → EReal) (ix2 c'' r)) Cert.SE.zer
          * (m ((c : Thread nD τ).loc main_arg2) : S16x256.Idx → EReal) (ix2 r c'))
  exact congrArg₂ (· * ·) (blk0_apply m c t c' s)
    (congrArg Ideal.logistic (Finset.sum_congr rfl fun r _ =>
      congrArg₂ (· * ·)
        (congrArg₂ max (Finset.sum_congr rfl fun c'' _ =>
          congrArg₂ (· * ·)
            (congrArg (· * Cert.SE.kap) (Finset.sum_congr rfl fun s' _ => blk0_apply m c t c'' s'))
            (blk1_apply m c t c'' r)) rfl)
        (blk2_apply m c t r c')))

/-- An entry of the result array is in point t's block iff each coordinate is in the block's range on its axis. -/
theorem mem_blk3 (t : Fin cfg0.N) (i : S32x256x3136.Idx) :
    i ∈ ((cfg0.win 3).blk t).view.set ↔ ∀ a : Fin 3, win0_3.index t a * S1x256x3136.size a ≤ (i a).val
      ∧ (i a).val < win0_3.index t a * S1x256x3136.size a + S1x256x3136.size a := by
  show i ∈ ((View.whole main_v1).slice (win0_3.rect t)).set ↔ _
  rw [View.set_slice_whole, Rect.mem_set_unit]
  exact Iff.rfl

/-- Entry (b, c, s) of the result array lies in the block point b writes back. -/
theorem cover3 (i : S32x256x3136.Idx) :
    ∃ t : Fin cfg0.N, (cfg0.win 3).flush t = true ∧ i ∈ ((cfg0.win 3).blk t).view.set := by
  have hN : cfg0.N = 32 := N_0
  have hi0 : (i 0).val < 32 := (i 0).isLt
  have hi1 : (i 1).val < 256 := (i 1).isLt
  have hi2 : (i 2).val < 3136 := (i 2).isLt
  obtain ⟨t, ht⟩ : ∃ t : Fin cfg0.N, t.val = (i 0).val := ⟨⟨(i 0).val, by omega⟩, rfl⟩
  obtain ⟨-, -, -, -, -, -, -, e0, e1, e2⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 3136 ≤ (i 2).val ∧ (i 2).val < win0_3.index t (2 : Fin 3) * 3136 + 3136
    omega

/-- The result array after the region is `outFlat` of the argument arrays. -/
theorem final (c : Dev nD) :
    (dats m 0 c).arrAt 3 cfg0.N = outFlat (m ((c : Thread nD τ).loc main_arg0)) (m ((c : Thread nD τ).loc main_arg1))
      (m ((c : Thread nD τ).loc main_arg2)) :=
  (dats m 0 c).arrAt_eq_of_cover 3 _ (fun t _ => flushed_eq m c t) cover3

end Cert.SE.Ref

end
-- ==== Proof.RefValue.lean ====
/-
  The reference program's run, read: its result is the squeeze-and-excitation formula of its three arguments.

  After the region the result array holds the merged-axis result; the last operation lays it out again as
  [32, 256, 56, 56], entry (b, c, h, w) taking the merged entry (b, c, 56 * h + w), whose activation factor is the
  activation at (b, c, h, w) because (56 * h + w) / 56 = h and (56 * h + w) % 56 = w. The arguments are not written.
-/
import proofs.«144423_g2000405802258945_pallasbulk_1296_25_alg».proof.Proof.RefBlocks

set_option maxRecDepth 16384

noncomputable section

namespace Cert.SE.Ref

open Idealize.ShloMosaic Idealize.ShloMosaic.TcCoe Idealize.SL.Sem Cert.ReferenceIdeal
open Idealize.ShloMosaic.ValueIdx Cert.ReferenceIdeal.Gen

/-- The merged-axis result at (b, c, 56 * h + w) is the result at (b, c, h, w). -/
theorem outFlat_unmerge (x : Cert.SE.SX.Idx → EReal) (w1 : Cert.SE.SW1.Idx → EReal) (w2 : Cert.SE.SW2.Idx → EReal)
    (b : Fin 32) (c' : Fin 256) (h w : Fin 56) (hlt : 56 * h.val + w.val < 3136) :
    outFlat x w1 w2 (ix3 b c' (⟨56 * h.val + w.val, hlt⟩ : Fin 3136)) = Cert.SE.outR x w1 w2 (ix4 b c' h w) := by
  have hh : h.val < 56 := h.isLt
  have hw : w.val < 56 := w.isLt
  show Cert.SE.flat x (ix3 b c' (⟨56 * h.val + w.val, hlt⟩ : Fin 3136)) * Cert.SE.gateR (Cert.SE.flat x) w1 w2 b c'
    = x (ix4 b c' h w) * Cert.SE.gateR (Cert.SE.flat x) w1 w2 b c'
  refine congrArg (· * _) ?_
  show x _ = x _
  refine congrArg x ?_
  funext a
  apply Fin.ext
  match a with
  | ⟨0, _⟩ => rfl
  | ⟨1, _⟩ => rfl
  | ⟨2, _⟩ => show (56 * h.val + w.val) / 56 = h.val; omega
  | ⟨3, _⟩ => show (56 * h.val + w.val) % 56 = w.val; omega

/-- The program's result buffer after its last operation is the formula of the three argument arrays. -/
theorem tail_eq (m : (ℓ : Loc nD τ sig) → Buf (Elt Ideal) ℓ) (c : Dev nD) :
    (Pipeline.afterTail₀ cfgs (dats m) 0 (V0 m) [hostOps1] c main_v2 : S32x256x56x56.Idx → EReal)
      = Cert.SE.outR (m ((c.tc : Thread nD τ).loc main_arg0)) (m ((c.tc : Thread nD τ).loc main_arg1))
          (m ((c.tc : Thread nD τ).loc main_arg2)) := by
  have hW : Pipeline.withArrays (cfgs 0).spec c (V0 m c) (fun w => (dats m 0 c).arrAt w (cfgs 0).N)
        (Proc.devRef .tc main_v1)
      = outFlat (m ((c.tc : Thread nD τ).loc main_arg0)) (m ((c.tc : Thread nD τ).loc main_arg1))
          (m ((c.tc : Thread nD τ).loc main_arg2)) :=
    (Pipeline.withArrays_arr spec0 launch0.win.arr_inj c (V0 m c)
      (fun w => (dats m 0 c).arrAt w cfg0.N) 3).trans (final m c)
  unfold Pipeline.afterTail₀
  show StableHlo.after hostOps1 _ (Proc.devRef .tc main_v2) = _
  after_results
  rw [hW]
  funext i
  obtain ⟨b, c', h, w, rfl⟩ : ∃ (b : Fin 32) (c' : Fin 256) (h : Fin 56) (w : Fin 56), i = ix4 b c' h w :=
    ⟨i 0, i 1, i 2, i 3, eq_ix4 i⟩
  have hh : h.val < 56 := h.isLt
  have hw : w.val < 56 := w.isLt
  have hlt : 56 * h.val + w.val < 3136 := by omega
  have hk : (S32x256x3136.rowMajor (ix3 b c' (⟨56 * h.val + w.val, hlt⟩ : Fin 3136))).val
      = (S32x256x56x56.rowMajor (ix4 b c' h w)).val := by
    rw [Shape.rowMajor_val_three, Shape.rowMajor_val_four]
    show (b.val * 256 + c'.val) * 3136 + (56 * h.val + w.val) = ((b.val * 256 + c'.val) * 56 + h.val) * 56 + w.val
    omega
  exact (shapeCast_apply _ _ _ _ hk).trans (outFlat_unmerge _ _ _ b c' h w hlt)

/-- Every run of the reference program ends with its result buffer at the formula of its three argument arrays, and
    the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = Cert.SE.outR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.SE.Ref

end
-- ==== Proof.lean ====
/-
  The certificate of a squeeze-and-excitation block: a kernel that computes the per-channel gates in one pass
  and leaves the final scaling to the host, against a reference that computes gate and scaling in one kernel.

  Both programs compute, for activations x[b, c, h, w] and weights w1, w2,

      out[b, c, h, w] = x[b, c, h, w] * logistic (relu (mean over (h, w) of x[b, c] . w1) . w2) [c].

  They differ in three ways, none of which changes the value on the extended reals when the activations are
  real numbers. The kernel takes the spatial mean as a matrix product against a constant matrix filled with the
  float nearest 1/3136, so the factor multiplies every term of the sum, where the reference sums first and
  scales once with the same float: a real factor distributes over a finite sum of reals (this is where the
  precondition is used: on the extended reals a sum holding both infinities is bottom whatever the factor).
  The kernel multiplies by transposed weights from the left, the reference by the weights from the right:
  multiplication commutes. And the kernel works on four images per grid point with 128 identical lanes, of
  which the host keeps lane 0, where the reference works on one image per point: a different tiling of the
  same array. The idealization rewrote nothing, so that claim is trivial; the three frames are the generated
  ones.
-/
import proofs.«144423_g2000405802258945_pallasbulk_1296_25_alg».proof.Defs
import proofs.«144423_g2000405802258945_pallasbulk_1296_25_alg».proof.Proof.Gen.Kernel
import proofs.«144423_g2000405802258945_pallasbulk_1296_25_alg».proof.Proof.Gen.Kernel.Frame
import proofs.«144423_g2000405802258945_pallasbulk_1296_25_alg».proof.Proof.Gen.KernelIdeal
import proofs.«144423_g2000405802258945_pallasbulk_1296_25_alg».proof.Proof.Gen.KernelIdeal.Frame
import proofs.«144423_g2000405802258945_pallasbulk_1296_25_alg».proof.Proof.Gen.ReferenceIdeal
import proofs.«144423_g2000405802258945_pallasbulk_1296_25_alg».proof.Proof.Gen.ReferenceIdeal.Frame
import proofs.«144423_g2000405802258945_pallasbulk_1296_25_alg».proof.Proof.Gen.Pre_finite_inputs
import proofs.«144423_g2000405802258945_pallasbulk_1296_25_alg».proof.Proof.Spec
import proofs.«144423_g2000405802258945_pallasbulk_1296_25_alg».proof.Proof.Finite
import proofs.«144423_g2000405802258945_pallasbulk_1296_25_alg».proof.Proof.KernelRun
import proofs.«144423_g2000405802258945_pallasbulk_1296_25_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference. -/
theorem frame_ri : Cert.frame_ReferenceIdeal := fun m ρ _ => Cert.ReferenceIdeal.Gen.frame m ρ

/-- The idealization rewrote no operation. -/
theorem preserves : Cert.preserves_Kernel_KernelIdeal := trivial

/-- From memories agreeing on the arguments both programs end with one array: the kernel program with the
    first arrangement of the gate formula, the reference with the second, and the two arrangements agree because
    every activation is a real number. -/
theorem algebraic : Cert.algebraic_KernelIdeal_ReferenceIdeal := by
  intro m ρ m' ρ' hpre hagree
  refine ⟨fun c => Cert.SE.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.SE.Kernel.run m ρ, ?_⟩
  refine (θ_run Cert.ReferenceIdeal.defs _ _).mono (fun _ h c => ⟨?_, (h c).2⟩) (Cert.SE.Ref.run m' ρ')
  rw [(h c).1, (hagree c).1, (hagree c).2.1, (hagree c).2.2]
  exact (Cert.SE.out_eq _ (fun i => Cert.SE.Finite.real_of_pre _ _ _ (hpre c) i) _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
